-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x3 : Shape := ⟨3, ![2, 8192, 3]⟩
abbrev S_ : Shape := ⟨0, ![]⟩

class Facts : Prop where
  bcast_S_S2x8192x3 : S_.BroadcastsInDim S2x8192x3 (![] : Fin 0 → Fin S2x8192x3.rank)
  reducesTo_S2x8192x3_S_d0_1_2 : S2x8192x3.ReducesTo [0, 1, 2] S_
  h_S_ : 0 < S_.numel

variable [Facts]

def fn {F : FTy → Type} [FloatOps F] (main_arg0 : FVec F S2x8192x3 .f32) (main_arg1 : FVec F S2x8192x3 .f32) : IVec S_ 1 :=
  let main_v0 : FVec F S2x8192x3 .f32 := Host.absf main_arg0
  let main_cst : FVec F S_ .f32 := constant S_ .f32 0x7F800000#32
  let main_v1 : FVec F S2x8192x3 .f32 := broadcastInDim S2x8192x3 ![] bcast_S_S2x8192x3 main_cst
  let main_v2 : IVec S2x8192x3 1 := cmpf .olt main_v0 main_v1
  let main_c : IVec S_ 1 := constantI S_ 1 1#1
  let main_v3 : IVec S_ 1 := (fun x v => Host.reduce IntOp.andi x v reducesTo_S2x8192x3_S_d0_1_2 h_S_) main_v2 main_c
  let main_v4 : FVec F S2x8192x3 .f32 := Host.absf main_arg1
  let main_cst_0 : FVec F S_ .f32 := constant S_ .f32 0x7F800000#32
  let main_v5 : FVec F S2x8192x3 .f32 := broadcastInDim S2x8192x3 ![] bcast_S_S2x8192x3 main_cst_0
  let main_v6 : IVec S2x8192x3 1 := cmpf .olt main_v4 main_v5
  let main_c_1 : IVec S_ 1 := constantI S_ 1 1#1
  let main_v7 : IVec S_ 1 := (fun x v => Host.reduce IntOp.andi x v reducesTo_S2x8192x3_S_d0_1_2 h_S_) main_v6 main_c_1
  let main_v8 : IVec S_ 1 := andi main_v3 main_v7
  main_v8
-- ==== Kernel.lean ====
abbrev S2x8192x3 : Shape := ⟨3, ![2, 8192, 3]⟩
abbrev S2x3x8192 : Shape := ⟨3, ![2, 3, 8192]⟩
abbrev S2x8192x1 : Shape := ⟨3, ![2, 8192, 1]⟩
abbrev S2x1x8192 : Shape := ⟨3, ![2, 1, 8192]⟩
abbrev S2x8192 : Shape := ⟨2, ![2, 8192]⟩
abbrev S_ : Shape := ⟨0, ![]⟩
abbrev S2 : Shape := ⟨1, ![2]⟩
abbrev S1x128x3 : Shape := ⟨3, ![1, 128, 3]⟩
abbrev S1x3x8192 : Shape := ⟨3, ![1, 3, 8192]⟩
abbrev S1x128x1 : Shape := ⟨3, ![1, 128, 1]⟩
abbrev S1x1x8192 : Shape := ⟨3, ![1, 1, 8192]⟩
abbrev S1x8192 : Shape := ⟨2, ![1, 8192]⟩
abbrev S128x3 : Shape := ⟨2, ![128, 3]⟩
abbrev S3x8192 : Shape := ⟨2, ![3, 8192]⟩
abbrev S128x1 : Shape := ⟨2, ![128, 1]⟩
abbrev S128x8192 : Shape := ⟨2, ![128, 8192]⟩
abbrev S128 : Shape := ⟨1, ![128]⟩
abbrev S8192 : Shape := ⟨1, ![8192]⟩

abbrev nBuf : Space → Nat
  | .hbm => 22
  | .vmem => 8
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x3x8192, .f32⟩
  | .hbm, ⟨3, _⟩ => ⟨S2x8192x1, .f32⟩
  | .hbm, ⟨4, _⟩ => ⟨S2x1x8192, .f32⟩
  | .hbm, ⟨5, _⟩ => ⟨S2x8192, .f32⟩
  | .hbm, ⟨6, _⟩ => ⟨S2x8192, .f32⟩
  | .hbm, ⟨7, _⟩ => ⟨S_, .f32⟩
  | .hbm, ⟨8, _⟩ => ⟨S2, .f32⟩
  | .hbm, ⟨9, _⟩ => ⟨S_, .f32⟩
  | .hbm, ⟨10, _⟩ => ⟨S2, .f32⟩
  | .hbm, ⟨11, _⟩ => ⟨S2, .f32⟩
  | .hbm, ⟨12, _⟩ => ⟨S_, .f32⟩
  | .hbm, ⟨13, _⟩ => ⟨S2, .f32⟩
  | .hbm, ⟨14, _⟩ => ⟨S_, .f32⟩
  | .hbm, ⟨15, _⟩ => ⟨S2, .f32⟩
  | .hbm, ⟨16, _⟩ => ⟨S2, .f32⟩
  | .hbm, ⟨17, _⟩ => ⟨S2, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1x128x3, .f32⟩
  | .local _ .vmem, ⟨1, _⟩ => ⟨S1x128x3, .f32⟩
  | .local _ .vmem, ⟨2, _⟩ => ⟨S1x3x8192, .f32⟩
  | .local _ .vmem, ⟨3, _⟩ => ⟨S1x128x1, .f32⟩
  | .local _ .vmem, ⟨4, _⟩ => ⟨S1x128x1, .f32⟩
  | .local _ .vmem, ⟨5, _⟩ => ⟨S1x1x8192, .f32⟩
  | .local _ .vmem, ⟨6, _⟩ => ⟨S1x1x8192, .f32⟩
  | .local _ .vmem, ⟨7, _⟩ => ⟨S1x8192, .f32⟩
  | _, _ => ⟨S2x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_call0_v1_1 : Ref sig .tc := ⟨.hbm, 4, rfl⟩
abbrev main_call0_v2 : Ref sig .tc := ⟨.hbm, 5, rfl⟩
abbrev main_call0_v3 : Ref sig .tc := ⟨.hbm, 6, rfl⟩
abbrev main_call0_cst : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_cst_2 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_cst_3 : Ref sig .tc := ⟨.hbm, 18, rfl⟩
abbrev main_call0_v11 : Ref sig .tc := ⟨.hbm, 19, rfl⟩
abbrev main_call0_cst_4 : Ref sig .tc := ⟨.hbm, 20, rfl⟩
abbrev main_v0 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v51 : BitVec 1 := Scalar.cmpi .eq arg1 c63_i32
  let v52 : BitVec 32 := Scalar.extui v51
  let c0_i32_17 : BitVec 32 := 0#32
  let v53 : BitVec 1 := Scalar.cmpi .ne v52 c0_i32_17
  v53

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x3x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S2x8192x3_S2x3x8192_0_2_1 : S2x8192x3.Transposes [0, 2, 1] S2x3x8192
  shapeCasts_S2x8192x1_S2x8192 : S2x8192x1.ShapeCasts S2x8192
  shapeCasts_S2x1x8192_S2x8192 : S2x1x8192.ShapeCasts S2x8192
  reducesTo_S2x8192_S2_d1 : S2x8192.ReducesTo [1] S2
  h_S_ : 0 < S_.numel
  bcast_S_S2 : S_.BroadcastsInDim S2 (![] : Fin 0 → Fin S2.rank)
  reducesTo_S2_S_d0 : S2.ReducesTo [0] S_
  inb_S1x128x3_S1x128x3_0_0_0 : ∀ a, (![0, 0, 0] : Fin 3 → Nat) a + S1x128x3.size a ≤ S1x128x3.size a
  h_S1x128x3 : 0 < S1x128x3.numel
  shapeCasts_S1x128x3_S128x3 : S1x128x3.ShapeCasts S128x3
  inb_S1x3x8192_S1x3x8192_0_0_0 : ∀ a, (![0, 0, 0] : Fin 3 → Nat) a + S1x3x8192.size a ≤ S1x3x8192.size a
  h_S1x3x8192 : 0 < S1x3x8192.numel
  shapeCasts_S1x3x8192_S3x8192 : S1x3x8192.ShapeCasts S3x8192
  slices_S128x3_o0_0_S128x1 : S128x3.Slices ![0, 0] S128x1
  slices_S128x3_o0_1_S128x1 : S128x3.Slices ![0, 1] S128x1
  slices_S128x3_o0_2_S128x1 : S128x3.Slices ![0, 2] S128x1
  slices_S3x8192_o0_0_S1x8192 : S3x8192.Slices ![0, 0] S1x8192
  slices_S3x8192_o1_0_S1x8192 : S3x8192.Slices ![1, 0] S1x8192
  slices_S3x8192_o2_0_S1x8192 : S3x8192.Slices ![2, 0] S1x8192
  broadcasts_S128x1_S128x8192 : S128x1.Broadcasts S128x8192
  broadcasts_S1x8192_S128x8192 : S1x8192.Broadcasts S128x8192
  reduces_S128x8192_S128 : S128x8192.Reduces [1] S128
  shapeCasts_S128_S128x1 : S128.ShapeCasts S128x1
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  reduces_S128x8192_S8192 : S128x8192.Reduces [0] S8192
  shapeCasts_S8192_S1x8192 : S8192.ShapeCasts S1x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  dot_S128x3_S3x8192_S128x8192_1_0_0_1_n_n_wf : DotDims.WF S128x3 S3x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x3.size a ≤ S2x8192x3.size a
  hwx0_0 : ∀ i : grid0.Coords, EltTy.bits .f32 = 32 ∨ (Rect.block (s := S2x8192x3) S1x128x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x3x8192.size a ≤ S2x3x8192.size a
  hwx0_1 : ∀ i : grid0.Coords, EltTy.bits .f32 = 32 ∨ (Rect.block (s := S2x3x8192) S1x3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S2x8192x1.size a
  hwx0_2 : ∀ i : grid0.Coords, EltTy.bits .f32 = 32 ∨ (Rect.block (s := S2x8192x1) S1x128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S2x1x8192.size a
  hwx0_3 : ∀ i : grid0.Coords, EltTy.bits .f32 = 32 ∨ (Rect.block (s := S2x1x8192) S1x1x8192.size (cc0_transform_3 i) (hinb0_3 i)).WholeWords (EltTy.packing .f32)

variable [Facts₀]

def dot_S128x3_S3x8192_S128x8192_1_0_0_1_n_n : DotDims S128x3 S3x8192 S128x8192 where
  lhsContracting := [1]
  rhsContracting := [0]
  lhsNonContracting := [0]
  rhsNonContracting := [1]
  lhsBatch := []
  rhsBatch := []
  wf := dot_S128x3_S3x8192_S128x8192_1_0_0_1_n_n_wf

abbrev win0_0 : Pipeline.Window sig grid0 :=
  Pipeline.Window.ofSpec (Memref.whole main_arg1) S1x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x3x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1_0) S1x128x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x8192x3 : Shape := ⟨3, ![2, 8192, 3]⟩
abbrev S_ : Shape := ⟨0, ![]⟩
abbrev S2x8192 : Shape := ⟨2, ![2, 8192]⟩
abbrev S2x8192x8192 : Shape := ⟨3, ![2, 8192, 8192]⟩
abbrev S2x8192x1 : Shape := ⟨3, ![2, 8192, 1]⟩
abbrev S2x1x8192 : Shape := ⟨3, ![2, 1, 8192]⟩
abbrev S2 : Shape := ⟨1, ![2]⟩

abbrev nBuf : Space → Nat
  | .hbm => 41
  | .vmem => 0
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x8192x3, .f32⟩
  | .hbm, ⟨3, _⟩ => ⟨S_, .f32⟩
  | .hbm, ⟨4, _⟩ => ⟨S2x8192, .f32⟩
  | .hbm, ⟨5, _⟩ => ⟨S2x8192x3, .f32⟩
  | .hbm, ⟨6, _⟩ => ⟨S_, .f32⟩
  | .hbm, ⟨7, _⟩ => ⟨S2x8192, .f32⟩
  | .hbm, ⟨8, _⟩ => ⟨S2x8192x8192, .f32⟩
  | .hbm, ⟨9, _⟩ => ⟨S2x8192x1, .f32⟩
  | .hbm, ⟨10, _⟩ => ⟨S2x1x8192, .f32⟩
  | .hbm, ⟨11, _⟩ => ⟨S2x8192x8192, .f32⟩
  | .hbm, ⟨12, _⟩ => ⟨S2x8192x8192, .f32⟩
  | .hbm, ⟨13, _⟩ => ⟨S2x8192x8192, .f32⟩
  | .hbm, ⟨14, _⟩ => ⟨S_, .f32⟩
  | .hbm, ⟨15, _⟩ => ⟨S2x8192x8192, .f32⟩
  | .hbm, ⟨16, _⟩ => ⟨S2x8192x8192, .f32⟩
  | .hbm, ⟨17, _⟩ => ⟨S2x8192x8192, .f32⟩
  | .hbm, ⟨18, _⟩ => ⟨S_, .f32⟩
  | .hbm, ⟨19, _⟩ => ⟨S2x8192x8192, .f32⟩
  | .hbm, ⟨20, _⟩ => ⟨S2x8192x8192, .f32⟩
  | .hbm, ⟨21, _⟩ => ⟨S2x8192x8192, .f32⟩
  | .hbm, ⟨22, _⟩ => ⟨S_, .f32⟩
  | .hbm, ⟨23, _⟩ => ⟨S2x8192, .f32⟩
  | .hbm, ⟨24, _⟩ => ⟨S_, .f32⟩
  | .hbm, ⟨25, _⟩ => ⟨S2x8192, .f32⟩
  | .hbm, ⟨26, _⟩ => ⟨S_, .f32⟩
  | .hbm, ⟨27, _⟩ => ⟨S2, .f32⟩
  | .hbm, ⟨28, _⟩ => ⟨S_, .f32⟩
  | .hbm, ⟨29, _⟩ => ⟨S2, .f32⟩
  | .hbm, ⟨30, _⟩ => ⟨S2, .f32⟩
  | .hbm, ⟨31, _⟩ => ⟨S_, .f32⟩
  | .hbm, ⟨32, _⟩ => ⟨S2, .f32⟩
  | .hbm, ⟨33, _⟩ => ⟨S_, .f32⟩
  | .hbm, ⟨34, _⟩ => ⟨S2, .f32⟩
  | .hbm, ⟨35, _⟩ => ⟨S2, .f32⟩
  | .hbm, ⟨36, _⟩ => ⟨S2, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S2x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  reducesTo_S2x8192x3_S2x8192_d2 : S2x8192x3.ReducesTo [2] S2x8192
  h_S_ : 0 < S_.numel
  bcast_S2x8192_S2x8192x1_0_1 : S2x8192.BroadcastsInDim S2x8192x1 (![0, 1] : Fin 2 → Fin S2x8192x1.rank)
  bcast_S2x8192_S2x1x8192_0_2 : S2x8192.BroadcastsInDim S2x1x8192 (![0, 2] : Fin 2 → Fin S2x1x8192.rank)
  bcast_S2x8192x1_S2x8192x8192_0_1_2 : S2x8192x1.BroadcastsInDim S2x8192x8192 (![0, 1, 2] : Fin 3 → Fin S2x8192x8192.rank)
  bcast_S2x1x8192_S2x8192x8192_0_1_2 : S2x1x8192.BroadcastsInDim S2x8192x8192 (![0, 1, 2] : Fin 3 → Fin S2x8192x8192.rank)
  bcast_S_S2x8192x8192 : S_.BroadcastsInDim S2x8192x8192 (![] : Fin 0 → Fin S2x8192x8192.rank)
  reducesTo_S2x8192x8192_S2x8192_d2 : S2x8192x8192.ReducesTo [2] S2x8192
  reducesTo_S2x8192x8192_S2x8192_d1 : S2x8192x8192.ReducesTo [1] S2x8192
  reducesTo_S2x8192_S2_d1 : S2x8192.ReducesTo [1] S2
  bcast_S_S2 : S_.BroadcastsInDim S2 (![] : Fin 0 → Fin S2.rank)
  reducesTo_S2_S_d0 : S2.ReducesTo [0] S_
  dot_S2x8192x3_S2x8192x3_S2x8192x8192_2_2_1_1_0_0_wf : DotDims.WF S2x8192x3 S2x8192x3 S2x8192x8192 [2] [2] [1] [1] [0] [0]

variable [Facts₀]

def dot_S2x8192x3_S2x8192x3_S2x8192x8192_2_2_1_1_0_0 : DotDims S2x8192x3 S2x8192x3 S2x8192x8192 where
  lhsContracting := [2]
  rhsContracting := [2]
  lhsNonContracting := [1]
  rhsNonContracting := [1]
  lhsBatch := [0]
  rhsBatch := [0]
  wf := dot_S2x8192x3_S2x8192x3_S2x8192x8192_2_2_1_1_0_0_wf

class Facts : Prop extends Facts₀ where

variable [Facts]
-- ==== Proof.Spec.lean ====
/-
  The Chamfer distance of two clouds of 8192 points in three coordinates, per batch entry, over the extended reals.

  For a batch entry b, a point i of the first cloud `g` and a point j of the second cloud `p`, the squared distance is
  written by the expansion  |g_i|² + |p_j|² − 2·⟨g_i, p_j⟩  (`sqd`).  The distance is its square root after clamping at
  zero (`root`).  `dist1 b i` is the least distance from point i of `g` to a point of `p`, `dist2 b j` the least
  distance from point j of `p` to a point of `g`.

  Two laws are proved here.  First, `root` is monotone and keeps +∞, so it commutes with a least value over a finite
  family (`root_minOver`): the least of the roots is the root of the least.  Second, a least value over 8192 points taken
  tile by tile, 64 tiles of 128 points, each tile's least value folded into a running least value that starts at +∞,
  is the least value over all the points (`acc_last`).
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- A batch of two clouds of 8192 points with three coordinates each. -/
abbrev Pts : Type := (⟨3, ![2, 8192, 3]⟩ : Shape).Idx → EReal

/-- The factor two, the clamp zero and the starting value +∞, as the programs spell them. -/
abbrev two : EReal := Ideal.ofBits .f32 0x40000000#32
abbrev zero : EReal := Ideal.ofBits .f32 0x00000000#32
abbrev top : EReal := Ideal.ofBits .f32 0x7F800000#32

theorem zero_eq : zero = 0 := Ideal.ofBits_zero_f32
theorem top_eq : top = ⊤ := by simp [top, Ideal.ofBits, Ideal.ieee]

/-- The squared length of point i of batch entry b. -/
def nrm (x : Pts) (b : Fin 2) (i : Fin 8192) : EReal := ∑ k : Fin 3, x (ix3 b i k) * x (ix3 b i k)

/-- The inner product of point i of `g` with point j of `p`. -/
def inner (g p : Pts) (b : Fin 2) (i j : Fin 8192) : EReal := ∑ k : Fin 3, g (ix3 b i k) * p (ix3 b j k)

/-- The squared distance by the expansion of the square. -/
def sqd (g p : Pts) (b : Fin 2) (i j : Fin 8192) : EReal := (nrm g b i + nrm p b j) - two * inner g p b i j

/-- The square root after clamping at zero. -/
def root (x : EReal) : EReal := Ideal.sqrt (max x zero)

/-- The least value of a finite family, folded from +∞. -/
def minOver {n : ℕ} (f : Fin n → EReal) : EReal := (Finset.univ : Finset (Fin n)).fold min top f

theorem minOver_eq_inf {n : ℕ} (f : Fin n → EReal) : minOver f = Finset.univ.inf f := by
  unfold minOver; rw [top_eq]; rfl

theorem le_minOver_iff {n : ℕ} (f : Fin n → EReal) (x : EReal) : x ≤ minOver f ↔ ∀ k, x ≤ f k := by
  rw [minOver_eq_inf, Finset.le_inf_iff]
  exact ⟨fun h k => h k (Finset.mem_univ k), fun h k _ => h k⟩

/-- The square root is monotone on the non-negative extended reals. -/
theorem sqrt_le_sqrt {x y : EReal} (hx : 0 ≤ x) (hxy : x ≤ y) : Ideal.sqrt x ≤ Ideal.sqrt y := by
  induction y using EReal.rec with
  | bot => exact absurd (lt_of_lt_of_le EReal.bot_lt_zero (hx.trans hxy)) (lt_irrefl _)
  | top => rw [Ideal.sqrt_top]; exact le_top
  | coe s =>
    induction x using EReal.rec with
    | bot => exact absurd (lt_of_lt_of_le EReal.bot_lt_zero hx) (lt_irrefl _)
    | top => exact absurd (lt_of_le_of_lt hxy (EReal.coe_lt_top s)) (lt_irrefl _)
    | coe r =>
      have hr : (0 : ℝ) ≤ r := EReal.coe_nonneg.1 hx
      have hrs : r ≤ s := EReal.coe_le_coe_iff.1 hxy
      rw [Ideal.sqrt_coe, Ideal.sqrt_coe, if_neg (not_lt.2 hr), if_neg (not_lt.2 (hr.trans hrs))]
      exact EReal.coe_le_coe_iff.2 (Real.sqrt_le_sqrt hrs)

theorem root_mono : Monotone root := fun x y hxy => by
  unfold root
  rw [zero_eq]
  exact sqrt_le_sqrt (le_max_right _ _) (max_le_max hxy le_rfl)

theorem root_top : root ⊤ = ⊤ := by
  unfold root; rw [max_eq_left le_top, Ideal.sqrt_top]

/-- The root of the least value is the least of the roots. -/
theorem root_minOver {n : ℕ} (f : Fin n → EReal) : root (minOver f) = minOver fun k => root (f k) := by
  rw [minOver_eq_inf, minOver_eq_inf]
  exact Finset.comp_inf_eq_inf_comp_of_is_total root root_mono root_top

/-- The least distance from point i of `g` to the cloud `p`, and from point j of `p` to the cloud `g`. -/
def dist1 (g p : Pts) (b : Fin 2) (i : Fin 8192) : EReal := minOver fun j => root (sqd g p b i j)
def dist2 (g p : Pts) (b : Fin 2) (j : Fin 8192) : EReal := minOver fun i => root (sqd g p b i j)

/-! ## A least value taken tile by tile -/

/-- Point r of tile k. -/
abbrev row (k : ℕ) (hk : k < 64) (r : Fin 128) : Fin 8192 := ⟨128 * k + r.val, by have := r.isLt; omega⟩

/-- The running least value after tile k: from +∞, each tile's least value folded in. -/
def acc (f : Fin 8192 → EReal) : (k : ℕ) → k < 64 → EReal
  | 0, h => min top (minOver fun r => f (row 0 h r))
  | k + 1, h => min (acc f k (Nat.lt_of_succ_lt h)) (minOver fun r => f (row (k + 1) h r))

theorem le_acc_iff (f : Fin 8192 → EReal) (x : EReal) :
    ∀ (k : ℕ) (hk : k < 64), x ≤ acc f k hk ↔ ∀ i : Fin 8192, i.val < 128 * (k + 1) → x ≤ f i
  | 0, hk => by
    unfold acc
    rw [le_min_iff, le_minOver_iff, top_eq]
    constructor
    · rintro ⟨_, h⟩ i hi
      have := h ⟨i.val, by omega⟩
      rwa [show row 0 hk ⟨i.val, by omega⟩ = i from Fin.ext (by simp)] at this
    · intro h
      exact ⟨le_top, fun r => h _ (by have := r.isLt; show 128 * 0 + r.val < 128 * (0 + 1); omega)⟩
  | k + 1, hk => by
    unfold acc
    rw [le_min_iff, le_minOver_iff, le_acc_iff f x k]
    constructor
    · rintro ⟨h1, h2⟩ i hi
      by_cases hlt : i.val < 128 * (k + 1)
      · exact h1 i hlt
      · have := h2 ⟨i.val - 128 * (k + 1), by omega⟩
        rwa [show row (k + 1) hk ⟨i.val - 128 * (k + 1), by omega⟩ = i from Fin.ext (by show 128 * (k + 1) + (i.val - 128 * (k + 1)) = i.val; omega)] at this
    · intro h
      exact ⟨fun i hi => h i (by omega), fun r => h _ (by have := r.isLt; show 128 * (k + 1) + r.val < 128 * (k + 1 + 1); omega)⟩

/-- After the last tile the running least value is the least value over all the points. -/
theorem acc_last (f : Fin 8192 → EReal) (h : 63 < 64) : acc f 63 h = minOver f :=
  le_antisymm
    ((le_minOver_iff f _).2 fun i => (le_acc_iff f _ 63 h).1 le_rfl i (by have := i.isLt; omega))
    ((le_acc_iff f _ 63 h).2 fun i _ => (le_minOver_iff f _).1 le_rfl i)

end Cert.Chamfer

end
-- ==== Proof.MinOps.lean ====
/-
  A least value along one axis of a matrix, read at a coordinate, over the extended reals: the kernel's reduction
  by `min` from +∞ along the columns of a row, and along the rows of a column, is the least value of that row's,
  resp. that column's, entries.
-/
import proofs.«126163_j4750233829481_2_alg».proof.Proof.Spec
import Idealize.ShloMosaic.PureOps.Reduce
import Idealize.ShloMosaic.PureOps.Ideal.Laws

noncomputable section

namespace Cert.Chamfer

open Idealize.ShloMosaic Idealize.ShloMosaic.ValueIdx

/-- The least value along the columns of row a of an [A, B] matrix. -/
theorem min_last2 {A B : ℕ} (src : FVec Ideal ⟨2, ![A, B]⟩ .f32)
    (h : (⟨2, ![A, B]⟩ : Shape).Reduces [1] ⟨1, ![A]⟩) (hφ : FKind.Formats .f32)
    (hacc : (0x7F800000#32 : BitVec 32) = 0x7F800000#32) (a : Fin A) :
    multiReduction .minimumf [1] ⟨1, ![A]⟩ src 0x7F800000#32 h hφ hacc (ix1 a) = minOver fun k : Fin B => src (ix2 a k) := by
  refine (multiReduction_minimumf_eq_fold src 0x7F800000#32 h hφ hacc (ix1 a)).trans ?_
  refine (h.fold_filter_drop_single _ _ src (ix1 a)).trans ?_
  unfold minOver
  refine Finset.fold_congr fun k _ => congrArg src ?_
  funext d
  match d with
  | ⟨0, _⟩ => rfl
  | ⟨1, _⟩ => rfl

/-- The least value along the rows of column b of an [A, B] matrix. -/
theorem min_first2 {A B : ℕ} (src : FVec Ideal ⟨2, ![A, B]⟩ .f32)
    (h : (⟨2, ![A, B]⟩ : Shape).Reduces [0] ⟨1, ![B]⟩) (hφ : FKind.Formats .f32)
    (hacc : (0x7F800000#32 : BitVec 32) = 0x7F800000#32) (b : Fin B) :
    multiReduction .minimumf [0] ⟨1, ![B]⟩ src 0x7F800000#32 h hφ hacc (ix1 b) = minOver fun k : Fin A => src (ix2 k b) := by
  refine (multiReduction_minimumf_eq_fold src 0x7F800000#32 h hφ hacc (ix1 b)).trans ?_
  refine (h.fold_filter_drop_single _ _ src (ix1 b)).trans ?_
  unfold minOver
  refine Finset.fold_congr fun k _ => congrArg src ?_
  funext d
  match d with
  | ⟨0, _⟩ => rfl
  | ⟨1, _⟩ => rfl

end Cert.Chamfer

end
-- ==== Proof.LibRowOps.lean ====
/-
  Row operations read at coordinates, at the extended reals: a sum over the last or the middle axis of a
  rank-3 vector and over the last axis of a rank-2 one, as a sum over that axis's coordinate; broadcasts
  along a unit axis and casts that insert a unit axis, read at the coordinates of the result. Every
  statement is over arbitrary extents and spells indices by their coordinates.
-/
import Idealize.ShloMosaic.PureOps.Ideal.Laws
import Idealize.ShloMosaic.Lib.ValueIdx
import Idealize.ShloMosaic.Lib.Pipeline.Value

noncomputable section

namespace Cert.LibRowOps

open Idealize.ShloMosaic Idealize.ShloMosaic.ValueIdx

/-- A sum over the last axis of an [A, B, C] vector, at (a, b): the sum over k of the entry at (a, b, k). -/
theorem sum_last3 {A B C : ℕ} (src : FVec Ideal ⟨3, ![A, B, C]⟩ .f32)
    (h : (⟨3, ![A, B, C]⟩ : Shape).Reduces [2] ⟨2, ![A, B]⟩) (hφ : FKind.Formats .f32)
    (hacc : (0x00000000#32 : BitVec 32) = 0x00000000#32) (a : Fin A) (b : Fin B) :
    multiReduction .add [2] ⟨2, ![A, B]⟩ src 0x00000000#32 h hφ hacc (ix2 a b) = ∑ k : Fin C, src (ix3 a b k) := by
  refine (Ideal.multiReduction_add_single src 0x00000000#32 h hφ hacc (ix2 a b)).trans ?_
  refine Finset.sum_congr rfl fun k _ => congrArg src ?_
  funext d
  match d with
  | ⟨0, _⟩ => rfl
  | ⟨1, _⟩ => rfl
  | ⟨2, _⟩ => rfl

/-- A sum over the middle axis of an [A, B, C] vector, at (a, c): the sum over k of the entry at (a, k, c). -/
theorem sum_mid3 {A B C : ℕ} (src : FVec Ideal ⟨3, ![A, B, C]⟩ .f32)
    (h : (⟨3, ![A, B, C]⟩ : Shape).Reduces [1] ⟨2, ![A, C]⟩) (hφ : FKind.Formats .f32)
    (hacc : (0x00000000#32 : BitVec 32) = 0x00000000#32) (a : Fin A) (c : Fin C) :
    multiReduction .add [1] ⟨2, ![A, C]⟩ src 0x00000000#32 h hφ hacc (ix2 a c) = ∑ k : Fin B, src (ix3 a k c) := by
  refine (Ideal.multiReduction_add_single src 0x00000000#32 h hφ hacc (ix2 a c)).trans ?_
  refine Finset.sum_congr rfl fun k _ => congrArg src ?_
  funext d
  match d with
  | ⟨0, _⟩ => rfl
  | ⟨1, _⟩ => rfl
  | ⟨2, _⟩ => rfl

/-- A sum over the last axis of an [A, B] vector, at a: the sum over k of the entry at (a, k). -/
theorem sum_last2 {A B : ℕ} (src : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ src 0x00000000#32 h hφ hacc (ix1 a) = ∑ k : Fin B, src (ix2 a k) := by
  refine (Ideal.multiReduction_add_single src 0x00000000#32 h hφ hacc (ix1 a)).trans ?_
  refine Finset.sum_congr rfl fun k _ => congrArg src ?_
  funext d
  match d with
  | ⟨0, _⟩ => rfl
  | ⟨1, _⟩ => rfl

variable {α : Type}

/-- [A, 1, C] broadcast to [A, B, C], at (a, b, c): the operand at (a, 0, c). -/
theorem bcast_a1c_abc {A B C : ℕ} (x : (⟨3, ![A, 1, C]⟩ : Shape).Idx → α)
    (h : (⟨3, ![A, 1, C]⟩ : Shape).Broadcasts ⟨3, ![A, B, C]⟩) (a : Fin A) (b : Fin B) (c : Fin C) :
    broadcastTo ⟨3, ![A, B, C]⟩ x h (ix3 a b c) = x (ix3 a 0 c) := by
  refine broadcastTo_apply x h _ _ fun d => ?_
  match d with
  | ⟨0, _⟩ =>
    show a.val = if A = 1 then 0 else a.val
    split_ifs with hA
    · have := a.isLt; omega
    · rfl
  | ⟨1, _⟩ => rfl
  | ⟨2, _⟩ =>
    show c.val = if C = 1 then 0 else c.val
    split_ifs with hC
    · have := c.isLt; omega
    · rfl

/-- [A, B, 1] broadcast to [A, B, C], at (a, b, c): the operand at (a, b, 0). -/
theorem bcast_ab1_abc {A B C : ℕ} (x : (⟨3, ![A, B, 1]⟩ : Shape).Idx → α)
    (h : (⟨3, ![A, B, 1]⟩ : Shape).Broadcasts ⟨3, ![A, B, C]⟩) (a : Fin A) (b : Fin B) (c : Fin C) :
    broadcastTo ⟨3, ![A, B, C]⟩ x h (ix3 a b c) = x (ix3 a b 0) := by
  refine broadcastTo_apply x h _ _ fun d => ?_
  match d with
  | ⟨0, _⟩ =>
    show a.val = if A = 1 then 0 else a.val
    split_ifs with hA
    · have := a.isLt; omega
    · rfl
  | ⟨1, _⟩ =>
    show b.val = if B = 1 then 0 else b.val
    split_ifs with hB
    · have := b.isLt; omega
    · rfl
  | ⟨2, _⟩ => rfl

/-- [A, 1] broadcast to [A, B], at (a, b): the operand at (a, 0). -/
theorem bcast_a1_ab {A B : ℕ} (x : (⟨2, ![A, 1]⟩ : Shape).Idx → α)
    (h : (⟨2, ![A, 1]⟩ : Shape).Broadcasts ⟨2, ![A, B]⟩) (a : Fin A) (b : Fin B) :
    broadcastTo ⟨2, ![A, B]⟩ x h (ix2 a b) = x (ix2 a 0) := by
  refine broadcastTo_apply x h _ _ fun d => ?_
  match d with
  | ⟨0, _⟩ =>
    show a.val = if A = 1 then 0 else a.val
    split_ifs with hA
    · have := a.isLt; omega
    · rfl
  | ⟨1, _⟩ => rfl

/-- [1, B] broadcast to [A, B], at (a, b): the operand at (0, b). -/
theorem bcast_1b_ab {A B : ℕ} (x : (⟨2, ![1, B]⟩ : Shape).Idx → α)
    (h : (⟨2, ![1, B]⟩ : Shape).Broadcasts ⟨2, ![A, B]⟩) (a : Fin A) (b : Fin B) :
    broadcastTo ⟨2, ![A, B]⟩ x h (ix2 a b) = x (ix2 0 b) := by
  refine broadcastTo_apply x h _ _ fun d => ?_
  match d with
  | ⟨0, _⟩ => rfl
  | ⟨1, _⟩ =>
    show b.val = if B = 1 then 0 else b.val
    split_ifs with hB
    · have := b.isLt; omega
    · rfl

/-- [A, C] cast to [A, 1, C], at (a, 0, c): the operand at (a, c). -/
theorem cast_ac_a1c {A C : ℕ} (x : (⟨2, ![A, C]⟩ : Shape).Idx → α)
    (h : (⟨2, ![A, C]⟩ : Shape).ShapeCasts ⟨3, ![A, 1, C]⟩) (a : Fin A) (z : Fin 1) (c : Fin C) :
    shapeCast ⟨3, ![A, 1, C]⟩ x h (ix3 a z c) = x (ix2 a c) := by
  refine shapeCast_apply x h _ _ ?_
  rw [Shape.rowMajor_val_two, Shape.rowMajor_val_three]
  show a.val * C + c.val = (a.val * 1 + z.val) * C + c.val
  have := z.isLt
  have hz : z.val = 0 := by omega
  rw [hz]; ring

/-- [A, B] cast to [A, B, 1], at (a, b, 0): the operand at (a, b). -/
theorem cast_ab_ab1 {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) := by
  refine shapeCast_apply x h _ _ ?_
  rw [Shape.rowMajor_val_two, Shape.rowMajor_val_three]
  show a.val * B + b.val = (a.val * B + b.val) * 1 + z.val
  have := z.isLt
  omega

/-- [A] cast to [A, 1], at (a, 0): the operand at a. -/
theorem cast_a_a1 {A : ℕ} (x : (⟨1, ![A]⟩ : Shape).Idx → α)
    (h : (⟨1, ![A]⟩ : Shape).ShapeCasts ⟨2, ![A, 1]⟩) (a : Fin A) (z : Fin 1) :
    shapeCast ⟨2, ![A, 1]⟩ x h (ix2 a z) = x (ix1 a) := by
  refine shapeCast_apply x h _ _ ?_
  rw [Shape.rowMajor_val_one, Shape.rowMajor_val_two]
  show a.val = a.val * 1 + z.val
  have := z.isLt
  omega

end Cert.LibRowOps

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.Payload.lean ====
/-
  What one grid point of the kernel computes from its two input blocks, over the extended reals.

  A grid point holds a block `x0` of 128 points of the first cloud (rows r, coordinates k) and the whole second cloud
  of its batch entry `x1`, laid out coordinate-major (coordinate k, point j).  The slab entry (r, j) is the squared
  distance of row r to point j by the expansion of the square (`slab`).  The first output block is, row by row, the
  root of the least slab entry of the row; the column-wise least values of the slab are folded into a running least
  value by `min`; the second output is the root of that running value.
-/
import proofs.«126163_j4750233829481_2_alg».proof.Proof.Gen.KernelIdeal.Skeleton
import proofs.«126163_j4750233829481_2_alg».proof.Proof.MinOps
import proofs.«126163_j4750233829481_2_alg».proof.Proof.LibRowOps
import proofs.«126163_j4750233829481_2_alg».proof.Proof.LibColumnBlocks
import Idealize.ShloMosaic.Lib.ValueLayout
import Idealize.ShloMosaic.Lib.Pipeline.Value

noncomputable section

namespace Cert.Chamfer.Body

open Cert.KernelIdeal Cert.KernelIdeal.Gen Idealize.ShloMosaic Idealize.ShloMosaic.ValueIdx Cert.Chamfer

/-- Entry (r, j) of the slab of squared distances of a grid point: |x0_r|² + |x1_j|² − 2·⟨x0_r, x1_j⟩. -/
def slab (x0 : Vec Ideal S1x128x3 .f32) (x1 : Vec Ideal S1x3x8192 .f32) (r : Fin 128) (j : Fin 8192) : EReal :=
  ((∑ k : Fin 3, x0 (ix3 0 r k) * x0 (ix3 0 r k)) + (∑ k : Fin 3, x1 (ix3 0 k j) * x1 (ix3 0 k j)))
    - two * ∑ k : Fin 3, x0 (ix3 0 r k) * x1 (ix3 0 k j)

/-- The product's left operand is read at the result's row, -/
theorem dot_l0 (j : S128x8192.Idx) (k : dot_S128x3_S3x8192_S128x8192_1_0_0_1_n_n.contr.Idx) : (dot_S128x3_S3x8192_S128x8192_1_0_0_1_n_n.lhsIdx j k 0).val = (j 0).val := by
  unfold DotDims.lhsIdx
  rw [dif_neg (show ¬(0 : Fin S128x3.rank) ∈ dot_S128x3_S3x8192_S128x8192_1_0_0_1_n_n.lhsBatch by decide), dif_pos (show (0 : Fin S128x3.rank) ∈ dot_S128x3_S3x8192_S128x8192_1_0_0_1_n_n.lhsNonContracting by decide)]
  rfl

/-- and its right operand at the result's column. -/
theorem dot_r1 (j : S128x8192.Idx) (k : dot_S128x3_S3x8192_S128x8192_1_0_0_1_n_n.contr.Idx) : (dot_S128x3_S3x8192_S128x8192_1_0_0_1_n_n.rhsIdx j k 1).val = (j 1).val := by
  unfold DotDims.rhsIdx
  rw [dif_neg (show ¬(1 : Fin S3x8192.rank) ∈ dot_S128x3_S3x8192_S128x8192_1_0_0_1_n_n.rhsBatch by decide), dif_pos (show (1 : Fin S3x8192.rank) ∈ dot_S128x3_S3x8192_S128x8192_1_0_0_1_n_n.rhsNonContracting by decide)]
  rfl

/-- The square root of a vector, read at an index. -/
theorem vsqrt_apply {s : Shape} (a : FVec Ideal s .f32) (i : s.Idx) : Idealize.ShloMosaic.sqrt a i = Ideal.sqrt (a i) := rfl

/-- The slab the body computes is the slab of squared distances. -/
theorem pay4_apply (x0 : Vec Ideal S1x128x3 .f32) (x1 : Vec Ideal S1x3x8192 .f32) (r : Fin 128) (j : Fin 8192) :
    k0_pay4 (F := Ideal) x0 x1 (ix2 r j) = slab x0 x1 r j := by
  unfold k0_pay4
  simp only [subf_apply, addf_apply, mulf_apply, broadcast_apply]
  rw [Cert.LibRowOps.bcast_a1_ab, broadcastTo_1b_ab_apply]
  simp only [addf_apply, mulf_apply]
  rw [slice2_axis1_apply 0 _ _ r (0 : Fin 1) (0 : Fin 3) rfl, slice2_axis1_apply 1 _ _ r (0 : Fin 1) (1 : Fin 3) rfl,
    slice2_axis1_apply 2 _ _ r (0 : Fin 1) (2 : Fin 3) rfl, slice2_axis0_apply 0 _ _ (0 : Fin 1) j (0 : Fin 3) rfl,
    slice2_axis0_apply 1 _ _ (0 : Fin 1) j (1 : Fin 3) rfl, slice2_axis0_apply 2 _ _ (0 : Fin 1) j (2 : Fin 3) rfl]
  rw [Cert.LibColumnBlocks.matmul_zero_apply dot_S128x3_S3x8192_S128x8192_1_0_0_1_n_n rfl rfl rfl rfl dot_l0 dot_r1]
  simp only [shapeCast_1ab_ab_apply]
  unfold slab
  rw [Fin.sum_univ_three, Fin.sum_univ_three, Fin.sum_univ_three]
  rfl

/-- Row r of the first output block: the root of the least slab entry of the row. -/
theorem pay5_apply (x0 : Vec Ideal S1x128x3 .f32) (x1 : Vec Ideal S1x3x8192 .f32) (r : Fin 128) :
    k0_pay5 (F := Ideal) x0 x1 (ix3 0 r 0) = root (minOver fun j => slab x0 x1 r j) := by
  unfold k0_pay5
  rw [shapeCast_ab_1ab_apply _ _ (0 : Fin 1) r (0 : Fin 1)]
  rw [vsqrt_apply, maximumf_apply, broadcast_apply, Cert.LibRowOps.cast_a_a1 _ _ r (0 : Fin 1), min_last2]
  unfold root
  exact congrArg (fun f : Fin 8192 → EReal => Ideal.sqrt (max (minOver f) zero)) (funext fun j => pay4_apply x0 x1 r j)

/-- Column j of the slab's column-wise least values. -/
theorem pay6_apply (x0 : Vec Ideal S1x128x3 .f32) (x1 : Vec Ideal S1x3x8192 .f32) (j : Fin 8192) :
    k0_pay6 (F := Ideal) x0 x1 (ix2 0 j) = minOver fun r => slab x0 x1 r j := by
  unfold k0_pay6
  rw [shapeCast_a_1a_apply _ _ (0 : Fin 1) j, min_first2]
  exact congrArg minOver (funext fun r => pay4_apply x0 x1 r j)

/-- The running least value takes the new column-wise least values by `min`. -/
theorem pay2_apply (v42 : FVec Ideal S1x8192 .f32) (v46 : Vec Ideal S1x8192 .f32) (y : S1x8192.Idx) :
    k0_pay2 (F := Ideal) v42 v46 y = min (v46 y) (v42 y) := by
  unfold k0_pay2
  rw [shapeCast_self]
  rfl

/-- The running least value restarts from +∞. -/
theorem pay1_apply (y : S1x8192.Idx) : k0_pay1 (F := Ideal) y = top := by
  unfold k0_pay1
  rw [shapeCast_self]
  rfl

/-- Column j of the second output block: the root of the running least value. -/
theorem pay3_apply (v54 : Vec Ideal S1x8192 .f32) (j : Fin 8192) :
    k0_pay3 (F := Ideal) v54 (ix3 0 0 j) = root (v54 (ix2 0 j)) := by
  unfold k0_pay3
  rw [shapeCast_ab_1ab_apply _ _ (0 : Fin 1) (0 : Fin 1) j, vsqrt_apply, maximumf_apply, broadcast_apply]
  rfl

end Cert.Chamfer.Body

end
-- ==== Proof.Blocks.lean ====
/-
  The two input blocks of a grid point, read at coordinates, and the slab they give.

  Grid point t works on batch entry t / 64 and tile t % 64.  Its first block is rows 128·(t % 64) … of the first cloud
  of that batch entry; its second block is the whole second cloud of that batch entry, transposed so that the
  coordinate comes first.  So the slab entry (r, j) of the point is the squared distance of point 128·(t % 64) + r of the
  first cloud to point j of the second.
-/
import proofs.«126163_j4750233829481_2_alg».proof.Proof.Gen.KernelIdeal.Frame
import proofs.«126163_j4750233829481_2_alg».proof.Proof.Payload
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.Chamfer.Kernel

open Cert.KernelIdeal Cert.KernelIdeal.Gen Idealize.ShloMosaic.ValueIdx Cert.Chamfer Cert.Chamfer.Body

variable (m : (ℓ : Loc nD τ sig) → Buf (Elt Ideal) ℓ)

/-- The first cloud (the kernel's second argument) and the second cloud (its first argument) on core c. -/
abbrev gtA (c : Dev nD) : Pts := m ((c : Thread nD τ).loc main_arg1)
abbrev prA (c : Dev nD) : Pts := m ((c : Thread nD τ).loc main_arg0)

theorem hN : cfg0.N = 128 := N_0

/-- The batch entry and the tile of a grid point. -/
abbrev bOf (t : Fin cfg0.N) : Fin 2 := ⟨t.val / 64, by have := t.isLt; have := hN; omega⟩
theorem tile_lt (t : Fin cfg0.N) : t.val % 64 < 64 := Nat.mod_lt _ (by decide)

/-- The printed index maps over the grid: the first window's block index is (batch entry, tile, 0), the second's (batch entry, 0, 0). -/
theorem idx_facts01 : ∀ t : Fin cfg0.N, win0_0.index t (0 : Fin 3) = t.val / 64 ∧ win0_0.index t (1 : Fin 3) = t.val % 64
    ∧ win0_0.index t (2 : Fin 3) = 0 ∧ win0_1.index t (0 : Fin 3) = t.val / 64 ∧ win0_1.index t (1 : Fin 3) = 0
    ∧ win0_1.index t (2 : Fin 3) = 0 :=
  (by decide +kernel : ∀ t : Fin grid0.N, _)

/-- Row r, coordinate k of the first block of point t. -/
theorem blk0_read (c : Dev nD) (t : Fin cfg0.N) (r : Fin 128) (k : Fin 3) :
    (iblk m c 0 t : Vec Ideal S1x128x3 .f32) (ix3 0 r k) = gtA m c (ix3 (bOf t) (row (t.val % 64) (tile_lt t) r) k) := by
  obtain ⟨e0, e1, e2, -, -, -⟩ := idx_facts01 t
  show V m c main_arg1 (((cfg0.win 0).blk t).view.emb (ix3 0 r k)) = _
  rw [V_main_arg1]
  refine congrArg _ (funext fun a => Fin.ext ?_)
  match a with
  | ⟨0, _⟩ => show win0_0.index t (0 : Fin 3) * 1 + 1 * 0 = t.val / 64; omega
  | ⟨1, _⟩ => show win0_0.index t (1 : Fin 3) * 128 + 1 * r.val = 128 * (t.val % 64) + r.val; omega
  | ⟨2, _⟩ => show win0_0.index t (2 : Fin 3) * 3 + 1 * k.val = k.val; omega

/-- The second window's array, as the region finds it, is the second cloud with its last two axes exchanged. -/
theorem V_transposed (c : Dev nD) :
    (V m c main_call0_v0 : S2x3x8192.Idx → EReal) = transpose S2x3x8192 [0, 2, 1] (prA m c) transposes_S2x8192x3_S2x3x8192_0_2_1 := by
  show StableHlo.after hostOps0 (fun b => m (c, b)) (Proc.devRef .tc main_call0_v0) = _
  after_results
  rfl

/-- Coordinate k, point j of the second block of point t. -/
theorem blk1_read (c : Dev nD) (t : Fin cfg0.N) (k : Fin 3) (j : Fin 8192) :
    (iblk m c 1 t : Vec Ideal S1x3x8192 .f32) (ix3 0 k j) = prA m c (ix3 (bOf t) j k) := by
  obtain ⟨-, -, -, e0, e1, e2⟩ := idx_facts01 t
  have h : (iblk m c 1 t : Vec Ideal S1x3x8192 .f32) (ix3 0 k j) = (V m c main_call0_v0 : S2x3x8192.Idx → EReal) (ix3 (bOf t) k j) := by
    show V m c main_call0_v0 (((cfg0.win 1).blk t).view.emb (ix3 0 k j)) = _
    refine congrArg _ (funext fun a => Fin.ext ?_)
    match a with
    | ⟨0, _⟩ => show win0_1.index t (0 : Fin 3) * 1 + 1 * 0 = t.val / 64; omega
    | ⟨1, _⟩ => show win0_1.index t (1 : Fin 3) * 3 + 1 * k.val = k.val; omega
    | ⟨2, _⟩ => show win0_1.index t (2 : Fin 3) * 8192 + 1 * j.val = j.val; omega
  rw [h, V_transposed, transpose_ix3_021_apply]

/-- The slab of point t is the squared distances of its tile's points to the second cloud. -/
theorem slab_eq (c : Dev nD) (t : Fin cfg0.N) (r : Fin 128) (j : Fin 8192) :
    slab (iblk m c 0 t) (iblk m c 1 t) r j = sqd (gtA m c) (prA m c) (bOf t) (row (t.val % 64) (tile_lt t) r) j := by
  unfold slab sqd nrm inner
  simp only [blk0_read, blk1_read]

end Cert.Chamfer.Kernel

end
-- ==== Proof.Pieces.lean ====
/-
  What each case of the kernel's body leaves in its output blocks and in the running least value it carries from one
  grid point to the next, as the body's arithmetic applied to the point's two input blocks (and, past a batch entry's
  first tile, to the running value the point before left).  Stated for any float values.
-/
import proofs.«126163_j4750233829481_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Chamfer.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- In this case the first output's staging block ends at the rows' roots of least slab entries. -/
theorem out2_A (c : Dev nD) (i : grid0.Coords) (arg2 : Memref sig .tc .vmem S1x128x3 .f32) (harg2 : arg2.IsWhole) (arg3 : Memref sig .tc .vmem S1x3x8192 .f32) (harg3 : arg3.IsWhole) (arg4 : Memref sig .tc .vmem S1x128x1 .f32) (harg4 : arg4.IsWhole) (arg5 : Memref sig .tc .vmem S1x1x8192 .f32) (harg5 : arg5.IsWhole) (arg6 : Memref sig .tc .vmem S1x8192 .f32) (harg6 : arg6.IsWhole) (hc0 : cond0_0 i) (hc1 : ¬cond0_1 i)
    (x0 : Vec F S1x128x3 .f32) (x1 : Vec F S1x3x8192 .f32) :
    out0_A_2 c i arg2 harg2 arg3 harg3 arg4 harg4 arg5 harg5 arg6 harg6 hc0 hc1 x0 x1 = k0_pay5 x0 x1 := by
  unfold out0_A_2
  rw [View.read_writes_eq_canon _ _ _ (cover0_A_2 c i arg2 harg2 arg3 harg3 arg4 harg4 arg5 harg5 arg6 harg6 hc0 hc1 x0 x1)]
  unfold kernelRun0_A
  dsimp only
  try sl_unfold_words
  rw [View.canon_unit_zero hz3]
  simp only [View.readAt_eq_ld, harg2.read_unread, harg3.read_unread, View.ld_unit_zero (S := S1x128x3) hz3, View.ld_unit_zero (S := S1x3x8192) hz3]

/-- In this case the first output's staging block ends at the rows' roots of least slab entries. -/
theorem out2_B (c : Dev nD) (i : grid0.Coords) (arg2 : Memref sig .tc .vmem S1x128x3 .f32) (harg2 : arg2.IsWhole) (arg3 : Memref sig .tc .vmem S1x3x8192 .f32) (harg3 : arg3.IsWhole) (arg4 : Memref sig .tc .vmem S1x128x1 .f32) (harg4 : arg4.IsWhole) (arg5 : Memref sig .tc .vmem S1x1x8192 .f32) (harg5 : arg5.IsWhole) (arg6 : Memref sig .tc .vmem S1x8192 .f32) (harg6 : arg6.IsWhole) (hc0 : ¬cond0_0 i) (hc1 : ¬cond0_1 i)
    (x0 : Vec F S1x128x3 .f32) (x1 : Vec F S1x3x8192 .f32) (xs0 : Vec F S1x8192 .f32) :
    out0_B_2 c i arg2 harg2 arg3 harg3 arg4 harg4 arg5 harg5 arg6 harg6 hc0 hc1 x0 x1 xs0 = k0_pay5 x0 x1 := by
  unfold out0_B_2
  rw [View.read_writes_eq_canon _ _ _ (cover0_B_2 c i arg2 harg2 arg3 harg3 arg4 harg4 arg5 harg5 arg6 harg6 hc0 hc1 x0 x1 xs0)]
  unfold kernelRun0_B
  dsimp only
  try sl_unfold_words
  rw [View.canon_unit_zero hz3]
  simp only [View.readAt_eq_ld, harg2.read_unread, harg3.read_unread, View.ld_unit_zero (S := S1x128x3) hz3, View.ld_unit_zero (S := S1x3x8192) hz3]

/-- In this case the first output's staging block ends at the rows' roots of least slab entries. -/
theorem out2_C (c : Dev nD) (i : grid0.Coords) (arg2 : Memref sig .tc .vmem S1x128x3 .f32) (harg2 : arg2.IsWhole) (arg3 : Memref sig .tc .vmem S1x3x8192 .f32) (harg3 : arg3.IsWhole) (arg4 : Memref sig .tc .vmem S1x128x1 .f32) (harg4 : arg4.IsWhole) (arg5 : Memref sig .tc .vmem S1x1x8192 .f32) (harg5 : arg5.IsWhole) (arg6 : Memref sig .tc .vmem S1x8192 .f32) (harg6 : arg6.IsWhole) (hc0 : ¬cond0_0 i) (hc1 : cond0_1 i)
    (x0 : Vec F S1x128x3 .f32) (x1 : Vec F S1x3x8192 .f32) (xs0 : Vec F S1x8192 .f32) :
    out0_C_2 c i arg2 harg2 arg3 harg3 arg4 harg4 arg5 harg5 arg6 harg6 hc0 hc1 x0 x1 xs0 = k0_pay5 x0 x1 := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  try sl_unfold_words
  rw [View.canon_unit_zero hz3]
  simp only [View.readAt_eq_ld, harg2.read_unread, harg3.read_unread, View.ld_unit_zero (S := S1x128x3) hz3, View.ld_unit_zero (S := S1x3x8192) hz3]

/-- At a batch entry's first tile the running least value restarts from +∞ and takes the tile's column-wise least values. -/
theorem sout_A (c : Dev nD) (i : grid0.Coords) (arg2 : Memref sig .tc .vmem S1x128x3 .f32) (harg2 : arg2.IsWhole) (arg3 : Memref sig .tc .vmem S1x3x8192 .f32) (harg3 : arg3.IsWhole) (arg4 : Memref sig .tc .vmem S1x128x1 .f32) (harg4 : arg4.IsWhole) (arg5 : Memref sig .tc .vmem S1x1x8192 .f32) (harg5 : arg5.IsWhole) (arg6 : Memref sig .tc .vmem S1x8192 .f32) (harg6 : arg6.IsWhole) (hc0 : cond0_0 i) (hc1 : ¬cond0_1 i)
    (x0 : Vec F S1x128x3 .f32) (x1 : Vec F S1x3x8192 .f32) :
    sout0_A_0 c i arg2 harg2 arg3 harg3 arg4 harg4 arg5 harg5 arg6 harg6 hc0 hc1 x0 x1 = k0_pay2 (k0_pay6 x0 x1) (k0_pay1 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1x8192) hz2, View.readCov_unit_zero (S := S1x8192) _ hz2]
  simp only [View.readAt_eq_ld, harg2.read_unread, harg3.read_unread, View.ld_unit_zero (S := S1x128x3) hz3, View.ld_unit_zero (S := S1x3x8192) hz3]

/-- At a later tile the running least value takes the tile's column-wise least values on top of what it held. -/
theorem sout_B (c : Dev nD) (i : grid0.Coords) (arg2 : Memref sig .tc .vmem S1x128x3 .f32) (harg2 : arg2.IsWhole) (arg3 : Memref sig .tc .vmem S1x3x8192 .f32) (harg3 : arg3.IsWhole) (arg4 : Memref sig .tc .vmem S1x128x1 .f32) (harg4 : arg4.IsWhole) (arg5 : Memref sig .tc .vmem S1x1x8192 .f32) (harg5 : arg5.IsWhole) (arg6 : Memref sig .tc .vmem S1x8192 .f32) (harg6 : arg6.IsWhole) (hc0 : ¬cond0_0 i) (hc1 : ¬cond0_1 i)
    (x0 : Vec F S1x128x3 .f32) (x1 : Vec F S1x3x8192 .f32) (xs0 : Vec F S1x8192 .f32) :
    sout0_B_0 c i arg2 harg2 arg3 harg3 arg4 harg4 arg5 harg5 arg6 harg6 hc0 hc1 x0 x1 xs0 = k0_pay2 (k0_pay6 x0 x1) xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  try sl_unfold_words
  rw [View.canon_unit_zero hz2]
  simp only [View.readAt_eq_ld, harg2.read_unread, harg3.read_unread, harg6.read_unread, View.ld_unit_zero (S := S1x128x3) hz3, View.ld_unit_zero (S := S1x3x8192) hz3, View.ld_unit_zero (S := S1x8192) hz2]

/-- At a later tile the running least value takes the tile's column-wise least values on top of what it held. -/
theorem sout_C (c : Dev nD) (i : grid0.Coords) (arg2 : Memref sig .tc .vmem S1x128x3 .f32) (harg2 : arg2.IsWhole) (arg3 : Memref sig .tc .vmem S1x3x8192 .f32) (harg3 : arg3.IsWhole) (arg4 : Memref sig .tc .vmem S1x128x1 .f32) (harg4 : arg4.IsWhole) (arg5 : Memref sig .tc .vmem S1x1x8192 .f32) (harg5 : arg5.IsWhole) (arg6 : Memref sig .tc .vmem S1x8192 .f32) (harg6 : arg6.IsWhole) (hc0 : ¬cond0_0 i) (hc1 : cond0_1 i)
    (x0 : Vec F S1x128x3 .f32) (x1 : Vec F S1x3x8192 .f32) (xs0 : Vec F S1x8192 .f32) :
    sout0_C_0 c i arg2 harg2 arg3 harg3 arg4 harg4 arg5 harg5 arg6 harg6 hc0 hc1 x0 x1 xs0 = k0_pay2 (k0_pay6 x0 x1) xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  try sl_unfold_words
  rw [View.canon_unit_zero hz2]
  simp only [View.readAt_eq_ld, harg2.read_unread, harg3.read_unread, harg6.read_unread, View.ld_unit_zero (S := S1x128x3) hz3, View.ld_unit_zero (S := S1x3x8192) hz3, View.ld_unit_zero (S := S1x8192) hz2]

/-- At a batch entry's last tile the second output's staging block ends at the roots of the running least values. -/
theorem out3_C (c : Dev nD) (i : grid0.Coords) (arg2 : Memref sig .tc .vmem S1x128x3 .f32) (harg2 : arg2.IsWhole) (arg3 : Memref sig .tc .vmem S1x3x8192 .f32) (harg3 : arg3.IsWhole) (arg4 : Memref sig .tc .vmem S1x128x1 .f32) (harg4 : arg4.IsWhole) (arg5 : Memref sig .tc .vmem S1x1x8192 .f32) (harg5 : arg5.IsWhole) (arg6 : Memref sig .tc .vmem S1x8192 .f32) (harg6 : arg6.IsWhole) (hc0 : ¬cond0_0 i) (hc1 : cond0_1 i)
    (x0 : Vec F S1x128x3 .f32) (x1 : Vec F S1x3x8192 .f32) (xs0 : Vec F S1x8192 .f32) :
    out0_C_3 c i arg2 harg2 arg3 harg3 arg4 harg4 arg5 harg5 arg6 harg6 hc0 hc1 x0 x1 xs0 = k0_pay3 (k0_pay2 (k0_pay6 x0 x1) xs0) := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero hz3, View.readCov_unit_zero (S := S1x8192) _ hz2]
  simp only [View.readAt_eq_ld, harg2.read_unread, harg3.read_unread, harg6.read_unread, View.ld_unit_zero (S := S1x128x3) hz3, View.ld_unit_zero (S := S1x3x8192) hz3, View.ld_unit_zero (S := S1x8192) hz2]

end Cert.Chamfer.Pieces

end
-- ==== Proof.Accum.lean ====
/-
  What the kernel's staging blocks and its running least value hold after each grid point, over the extended reals.

  After grid point n = 64·b + k the running least value holds, at column j, the least squared distance from point j of
  the second cloud to the points of tiles 0 … k of the first cloud of batch entry b (by induction on the point: the
  first tile of a batch entry restarts from +∞, every later tile folds its column-wise least values in).  The first
  output's block holds, row by row, the least distance from that row's point to the second cloud; at a batch entry's
  last tile the second output's block holds the root of the running least value, which is then the least over the
  whole first cloud.
-/
import proofs.«126163_j4750233829481_2_alg».proof.Proof.Blocks
import proofs.«126163_j4750233829481_2_alg».proof.Proof.Pieces

noncomputable section

open Idealize.ShloMosaic Idealize.ShloMosaic.TcCoe Idealize.SL.Sem
open Idealize.ShloMosaic.Pipeline (Dat)

namespace Cert.Chamfer.Kernel

open Cert.KernelIdeal Cert.KernelIdeal.Gen Idealize.ShloMosaic.ValueIdx Cert.Chamfer Cert.Chamfer.Body

variable (m : (ℓ : Loc nD τ sig) → Buf (Elt Ideal) ℓ)

/-- The slab of a point of batch entry b and tile k. -/
theorem slab_at (c : Dev nD) (t : Fin cfg0.N) (b : Fin 2) (k : ℕ) (hk : k < 64) (hb : t.val / 64 = b.val)
    (hkt : t.val % 64 = k) (r : Fin 128) (j : Fin 8192) :
    slab (iblk m c 0 t) (iblk m c 1 t) r j = sqd (gtA m c) (prA m c) b (row k hk r) j := by
  subst hkt
  obtain rfl : b = bOf t := Fin.ext hb.symm
  exact slab_eq m c t r j

/-- One more tile folded into the running least value. -/
theorem fold_tile (c : Dev nD) (t : Fin cfg0.N) (b : Fin 2) (k : ℕ) (hk : k + 1 < 64) (hb : t.val / 64 = b.val)
    (hkt : t.val % 64 = k + 1) (j : Fin 8192) (prev : Vec Ideal S1x8192 .f32)
    (hprev : prev (ix2 0 j) = acc (fun i => sqd (gtA m c) (prA m c) b i j) k (Nat.lt_of_succ_lt hk)) :
    k0_pay2 (F := Ideal) (k0_pay6 (iblk m c 0 t) (iblk m c 1 t)) prev (ix2 0 j)
      = acc (fun i => sqd (gtA m c) (prA m c) b i j) (k + 1) hk := by
  rw [pay2_apply, pay6_apply, hprev]
  show _ = min (acc _ k _) (minOver fun r => _)
  exact congrArg (fun f => min (acc (fun i => sqd (gtA m c) (prA m c) b i j) k (Nat.lt_of_succ_lt hk)) (minOver f))
    (funext fun r => slab_at m c t b (k + 1) hk hb hkt r j)

/-- The running least value after point n = 64·b + k. -/
theorem scratch_eq (c : Dev nD) (n : ℕ) : ∀ (h : n < cfg0.N) (b : Fin 2) (k : ℕ) (hk : k < 64), n = 64 * b.val + k →
    ∀ j : Fin 8192, (outsAt0 m c n h).2.2 (ix2 0 j) = acc (fun i => sqd (gtA m c) (prA m c) b i j) k hk := by
  induction n using Nat.strong_induction_on with
  | _ n ih =>
    intro h b k hk hn j
    have hb : (⟨n, h⟩ : Fin cfg0.N).val / 64 = b.val := by show n / 64 = b.val; omega
    have hkt : (⟨n, h⟩ : Fin cfg0.N).val % 64 = k := by show n % 64 = k; omega
    cases k with
    | zero =>
      have h0 : (⟨n, h⟩ : Fin cfg0.N).val % 64 = 0 := hkt
      have h1 : ¬(⟨n, h⟩ : Fin cfg0.N).val % 64 = 63 := by rw [h0]; decide
      refine (congrArg (fun p => p.2.2 (ix2 0 j)) (outsAt0_A m c ⟨n, h⟩ h0 h1)).trans ?_
      dsimp only
      rw [Pieces.sout_A, pay2_apply, pay1_apply, pay6_apply]
      show _ = min top (minOver fun r => _)
      exact congrArg (fun f => min top (minOver f)) (funext fun r => slab_at m c ⟨n, h⟩ b 0 hk hb hkt r j)
    | succ k' =>
      have h0 : ¬(⟨n, h⟩ : Fin cfg0.N).val % 64 = 0 := by rw [hkt]; omega
      have hprev := ih (n - 1) (by omega) (by omega) b k' (by omega) (by omega) j
      by_cases h1 : (⟨n, h⟩ : Fin cfg0.N).val % 64 = 63
      · refine (congrArg (fun p => p.2.2 (ix2 0 j)) (outsAt0_C m c ⟨n, h⟩ h0 h1)).trans ?_
        dsimp only
        rw [Pieces.sout_C]
        exact fold_tile m c ⟨n, h⟩ b k' hk hb hkt j _ hprev
      · refine (congrArg (fun p => p.2.2 (ix2 0 j)) (outsAt0_B m c ⟨n, h⟩ h0 h1)).trans ?_
        dsimp only
        rw [Pieces.sout_B]
        exact fold_tile m c ⟨n, h⟩ b k' hk hb hkt j _ hprev

/-- Row r of the first output's block after point t: the least distance from that row's point to the second cloud. -/
theorem out2_eq (c : Dev nD) (t : Fin cfg0.N) (r : Fin 128) :
    (outsAt0 m c t.val t.isLt).1 (ix3 0 r 0) = dist1 (gtA m c) (prA m c) (bOf t) (row (t.val % 64) (tile_lt t) r) := by
  have key : k0_pay5 (F := Ideal) (iblk m c 0 t) (iblk m c 1 t) (ix3 0 r 0)
      = dist1 (gtA m c) (prA m c) (bOf t) (row (t.val % 64) (tile_lt t) r) := by
    rw [pay5_apply]
    unfold dist1
    rw [← root_minOver]
    exact congrArg (fun f => root (minOver f)) (funext fun j => slab_eq m c t r j)
  have hN : t.val < 128 := lt_of_lt_of_eq t.isLt hN
  by_cases h0 : t.val % 64 = 0
  · have h1 : ¬t.val % 64 = 63 := by omega
    refine (congrArg (fun p => p.1 (ix3 0 r 0)) (outsAt0_A m c t h0 h1)).trans ?_
    dsimp only
    rw [Pieces.out2_A]
    exact key
  · by_cases h1 : t.val % 64 = 63
    · refine (congrArg (fun p => p.1 (ix3 0 r 0)) (outsAt0_C m c t h0 h1)).trans ?_
      dsimp only
      rw [Pieces.out2_C]
      exact key
    · refine (congrArg (fun p => p.1 (ix3 0 r 0)) (outsAt0_B m c t h0 h1)).trans ?_
      dsimp only
      rw [Pieces.out2_B]
      exact key

/-- Column j of the second output's block after a batch entry's last tile: the least distance from point j of the
    second cloud to the first cloud. -/
theorem out3_eq (c : Dev nD) (t : Fin cfg0.N) (h1 : t.val % 64 = 63) (j : Fin 8192) :
    (outsAt0 m c t.val t.isLt).2.1 (ix3 0 0 j) = dist2 (gtA m c) (prA m c) (bOf t) j := by
  have hN : t.val < 128 := lt_of_lt_of_eq t.isLt hN
  have h0 : ¬t.val % 64 = 0 := by omega
  have hs := scratch_eq m c t.val t.isLt (bOf t) 63 (by decide) (by show t.val = 64 * (t.val / 64) + 63; omega) j
  have e2 := congrArg (fun p => p.2.2 (ix2 0 j)) (outsAt0_C m c t h0 h1)
  dsimp only at e2
  rw [Pieces.sout_C] at e2
  rw [e2] at hs
  refine (congrArg (fun p => p.2.1 (ix3 0 0 j)) (outsAt0_C m c t h0 h1)).trans ?_
  dsimp only
  rw [Pieces.out3_C, pay3_apply, hs, acc_last, root_minOver]
  rfl

end Cert.Chamfer.Kernel

end
-- ==== Proof.Final.lean ====
/-
  The two output arrays after the whole grid, over the extended reals.

  Every grid point writes its block of the first output back, and the 128 blocks tile the [2, 8192, 1] array: entry
  (b, i, 0) ends at the least distance from point i of the first cloud of batch entry b to the second cloud.  The
  second output's block is written back at each batch entry's last tile only, and those two blocks tile the
  [2, 1, 8192] array: entry (b, 0, j) ends at the least distance from point j of the second cloud to the first.
-/
import proofs.«126163_j4750233829481_2_alg».proof.Proof.Accum

noncomputable section

open Idealize.ShloMosaic Idealize.ShloMosaic.TcCoe Idealize.SL.Sem
open Idealize.ShloMosaic.Pipeline (Dat)

namespace Cert.Chamfer.Kernel

open Cert.KernelIdeal Cert.KernelIdeal.Gen Idealize.ShloMosaic.ValueIdx Cert.Chamfer Cert.Chamfer.Body

variable (m : (ℓ : Loc nD τ sig) → Buf (Elt Ideal) ℓ)

/-- The first output array: the least distances from the first cloud's points. -/
def G2 (g p : Pts) : S2x8192x1.Idx → EReal := fun i => dist1 g p ⟨(i 0).val, (i 0).isLt⟩ ⟨(i 1).val, (i 1).isLt⟩

/-- The second output array: the least distances from the second cloud's points. -/
def G3 (g p : Pts) : S2x1x8192.Idx → EReal := fun i => dist2 g p ⟨(i 0).val, (i 0).isLt⟩ ⟨(i 2).val, (i 2).isLt⟩

theorem G2_at (g p : Pts) (i : S2x8192x1.Idx) (b : Fin 2) (n : Fin 8192) (h0 : (i 0).val = b.val) (h1 : (i 1).val = n.val) :
    G2 g p i = dist1 g p b n := by
  unfold G2
  rw [show (⟨(i 0).val, (i 0).isLt⟩ : Fin 2) = b from Fin.ext h0, show (⟨(i 1).val, (i 1).isLt⟩ : Fin 8192) = n from Fin.ext h1]

theorem G3_at (g p : Pts) (i : S2x1x8192.Idx) (b : Fin 2) (n : Fin 8192) (h0 : (i 0).val = b.val) (h2 : (i 2).val = n.val) :
    G3 g p i = dist2 g p b n := by
  unfold G3
  rw [show (⟨(i 0).val, (i 0).isLt⟩ : Fin 2) = b from Fin.ext h0, show (⟨(i 2).val, (i 2).isLt⟩ : Fin 8192) = n from Fin.ext h2]

/-- The printed index maps of the two output windows over the grid. -/
theorem idx_facts23 : ∀ t : Fin cfg0.N, win0_2.index t (0 : Fin 3) = t.val / 64 ∧ win0_2.index t (1 : Fin 3) = t.val % 64
    ∧ win0_2.index t (2 : Fin 3) = 0 ∧ win0_3.index t (0 : Fin 3) = t.val / 64 ∧ win0_3.index t (1 : Fin 3) = 0
    ∧ win0_3.index t (2 : Fin 3) = 0 :=
  (by decide +kernel : ∀ t : Fin grid0.N, _)

/-- What point t writes back of the first output is its block of `G2`. -/
theorem flushed2_eq (c : Dev nD) (t : Fin cfg0.N) :
    (dats m 0 c).flushed 2 t = ((cfg0.win 2).blk t).view.read (Elt Ideal) (G2 (gtA m c) (prA m c)) := by
  obtain ⟨e0, e1, e2, -, -, -⟩ := idx_facts23 t
  show (cfg0.win 2).cut (grid0.coords t) ((dats m 0 c).after 2 t) = _
  rw [after0_2]
  funext y
  obtain ⟨u, r, z, rfl⟩ : ∃ (u : Fin 1) (r : Fin 128) (z : Fin 1), y = ix3 u r z := ⟨y 0, y 1, y 2, eq_ix3 y⟩
  obtain rfl : u = 0 := Subsingleton.elim _ _
  obtain rfl : z = 0 := Subsingleton.elim _ _
  show (outsAt0 m c t.val t.isLt).1 (ix3 0 r 0) = G2 (gtA m c) (prA m c) (((cfg0.win 2).blk t).view.emb (ix3 0 r 0))
  refine (out2_eq m c t r).trans (G2_at _ _ _ (bOf t) (row (t.val % 64) (tile_lt t) r) ?_ ?_).symm
  · show win0_2.index t (0 : Fin 3) * 1 + 1 * 0 = t.val / 64; omega
  · show win0_2.index t (1 : Fin 3) * 128 + 1 * r.val = 128 * (t.val % 64) + r.val; omega

/-- What a batch entry's last point writes back of the second output is its block of `G3`. -/
theorem flushed3_eq (c : Dev nD) (t : Fin cfg0.N) (hf : (cfg0.win 3).flush t = true) :
    (dats m 0 c).flushed 3 t = ((cfg0.win 3).blk t).view.read (Elt Ideal) (G3 (gtA m c) (prA m c)) := by
  obtain ⟨-, -, -, e0, e1, e2⟩ := idx_facts23 t
  have h1 : t.val % 64 = 63 := (flush0_3 t).mp hf
  show (cfg0.win 3).cut (grid0.coords t) ((dats m 0 c).after 3 t) = _
  rw [after0_3]
  funext y
  obtain ⟨u, z, j, rfl⟩ : ∃ (u : Fin 1) (z : Fin 1) (j : Fin 8192), y = ix3 u z j := ⟨y 0, y 1, y 2, eq_ix3 y⟩
  obtain rfl : u = 0 := Subsingleton.elim _ _
  obtain rfl : z = 0 := Subsingleton.elim _ _
  show (outsAt0 m c t.val t.isLt).2.1 (ix3 0 0 j) = G3 (gtA m c) (prA m c) (((cfg0.win 3).blk t).view.emb (ix3 0 0 j))
  refine (out3_eq m c t h1 j).trans (G3_at _ _ _ (bOf t) j ?_ ?_).symm
  · show win0_3.index t (0 : Fin 3) * 1 + 1 * 0 = t.val / 64; omega
  · show win0_3.index t (2 : Fin 3) * 8192 + 1 * j.val = j.val; omega

/-- The first output array after the run. -/
theorem final2 (c : Dev nD) : (dats m 0 c).arrAt 2 cfg0.N = G2 (gtA m c) (prA m c) :=
  (dats m 0 c).arrAt_eq_of_cover 2 (G2 (gtA m c) (prA m c)) (fun t _ => flushed2_eq m c t) fun i => by
    have h0 : (i 0).val < 2 := (i 0).isLt
    have h1 : (i 1).val < 8192 := (i 1).isLt
    have h2 : (i 2).val < 1 := (i 2).isLt
    let t : Fin cfg0.N := ⟨64 * (i 0).val + (i 1).val / 128, by rw [hN]; omega⟩
    obtain ⟨e0, e1, e2, -, -, -⟩ := idx_facts23 t
    have tv : t.val = 64 * (i 0).val + (i 1).val / 128 := rfl
    refine ⟨t, flush0_2 t, ?_⟩
    show i ∈ ((View.whole main_call0_v1_0).slice (win0_2.rect t)).set
    rw [View.set_slice_whole, Rect.mem_set_unit]
    intro a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 128 ≤ (i 1).val ∧ (i 1).val < win0_2.index t (1 : Fin 3) * 128 + 128; omega
    | ⟨2, _⟩ => show win0_2.index t (2 : Fin 3) * 1 ≤ (i 2).val ∧ (i 2).val < win0_2.index t (2 : Fin 3) * 1 + 1; omega

/-- The second output array after the run. -/
theorem final3 (c : Dev nD) : (dats m 0 c).arrAt 3 cfg0.N = G3 (gtA m c) (prA m c) :=
  (dats m 0 c).arrAt_eq_of_cover 3 (G3 (gtA m c) (prA m c)) (fun t hf => flushed3_eq m c t hf) fun i => by
    have h0 : (i 0).val < 2 := (i 0).isLt
    have h1 : (i 1).val < 1 := (i 1).isLt
    have h2 : (i 2).val < 8192 := (i 2).isLt
    let t : Fin cfg0.N := ⟨64 * (i 0).val + 63, by rw [hN]; omega⟩
    obtain ⟨-, -, -, e0, e1, e2⟩ := idx_facts23 t
    have tv : t.val = 64 * (i 0).val + 63 := rfl
    refine ⟨t, (flush0_3 t).mpr (by omega), ?_⟩
    show i ∈ ((View.whole main_call0_v1_1).slice (win0_3.rect t)).set
    rw [View.set_slice_whole, Rect.mem_set_unit]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 1 ≤ (i 1).val ∧ (i 1).val < win0_3.index t (1 : Fin 3) * 1 + 1; omega
    | ⟨2, _⟩ => show win0_3.index t (2 : Fin 3) * 8192 ≤ (i 2).val ∧ (i 2).val < win0_3.index t (2 : Fin 3) * 8192 + 8192; omega

end Cert.Chamfer.Kernel

end
-- ==== Proof.RefSide.lean ====
/-
  The reference's two families of least distances, read at an index.

  The reference forms the full matrix of distances: for a batch entry b, a point i of the first cloud and a point j of
  the second, its element (b, i, j) is the square root, after clamping at zero, of
  |g_i|² + |p_j|² − 2·⟨g_i, p_j⟩  (`v15_apply`).  It then takes the least value of that matrix along its last axis
  (over j, for each i: `v16_apply`) and along its middle axis (over i, for each j: `v17_apply`).  A least value along
  one axis, folded from +∞ by a commutative and associative minimum, is the fold over that axis's coordinates, which is
  the specification's `minOver`.
-/
import proofs.«126163_j4750233829481_2_alg».proof.Proof.Gen.ReferenceIdeal.Read
import proofs.«126163_j4750233829481_2_alg».proof.Proof.Spec

noncomputable section

namespace Cert.Chamfer.Ref

open Cert.ReferenceIdeal Cert.ReferenceIdeal.Gen Cert.ReferenceIdeal.Read Idealize.ShloMosaic Idealize.ShloMosaic.ValueIdx

/-- The index the squared length of the first cloud's point is read at: batch entry b, point i, coordinate k. -/
theorem idx_left (b : Fin 2) (i j : Fin 8192) (k : Fin 3) :
    idx_main_v3 (idx_main_v5 (idx_main_v7 (ix3 b i j))) k = ix3 b i k :=
  funext fun a => Fin.ext (by match a with | ⟨0, _⟩ => rfl | ⟨1, _⟩ => rfl | ⟨2, _⟩ => rfl)

/-- The index the squared length of the second cloud's point is read at: batch entry b, point j, coordinate k. -/
theorem idx_right (b : Fin 2) (i j : Fin 8192) (k : Fin 3) :
    idx_main_v1 (idx_main_v6 (idx_main_v8 (ix3 b i j))) k = ix3 b j k :=
  funext fun a => Fin.ext (by match a with | ⟨0, _⟩ => rfl | ⟨1, _⟩ => rfl | ⟨2, _⟩ => rfl)

/-- The two indices the inner product's k-th term is read at. -/
theorem lidx_eq (b : Fin 2) (i j : Fin 8192) (k : Fin 3) : lidx_main_v4 (ix3 b i j) k = ix3 b i k :=
  funext fun a => Fin.ext (by match a with | ⟨0, _⟩ => rfl | ⟨1, _⟩ => rfl | ⟨2, _⟩ => rfl)
theorem ridx_eq (b : Fin 2) (i j : Fin 8192) (k : Fin 3) : ridx_main_v4 (ix3 b i j) k = ix3 b j k :=
  funext fun a => Fin.ext (by match a with | ⟨0, _⟩ => rfl | ⟨1, _⟩ => rfl | ⟨2, _⟩ => rfl)

/-- The shared stage: the element (b, i, j) of the matrix of distances is the clamped root of the squared distance
    of point i of the first cloud and point j of the second. -/
theorem v15_apply (x0 x1 : (⟨S2x8192x3, .f32⟩ : BufTy).Contents (Elt Ideal)) (b : Fin 2) (i j : Fin 8192) :
    val_main_v15 (F := Ideal) x0 x1 (ix3 b i j) = Cert.Chamfer.root (Cert.Chamfer.sqd x1 x0 b i j) := by
  rw [val_main_v15_apply, val_main_v14_apply, val_main_v12_apply, val_main_v9_apply, val_main_v7_apply,
    val_main_v5_apply, val_main_v3_apply, val_main_v8_apply, val_main_v6_apply, val_main_v1_apply,
    val_main_v11_apply, val_main_v10_apply, val_main_v4_apply, val_main_v13_apply, val_main_cst_apply,
    val_main_cst_0_apply, val_main_cst_1_apply, val_main_cst_2_apply]
  simp only [val_main_v2_apply, val_main_v0_apply, idx_left, idx_right, lidx_eq, ridx_eq]
  unfold Cert.Chamfer.root Cert.Chamfer.sqd Cert.Chamfer.nrm Cert.Chamfer.inner
  simp only [Ideal.hostUnary_sqrt_def, Ideal.maximumf_def, Ideal.subf_def, Ideal.addf_def, Ideal.mulf_def,
    Ideal.ofBits_def, Ideal.ofBits_zero_f32, zero_add]

theorem reduces_d2 : S2x8192x8192.Reduces [2] S2x8192 := by decide
theorem reduces_d1 : S2x8192x8192.Reduces [1] S2x8192 := by decide

/-- The least distance from point i of the first cloud: the fold of the minimum over the last axis. -/
theorem v16_apply (x0 x1 : (⟨S2x8192x3, .f32⟩ : BufTy).Contents (Elt Ideal)) (b : Fin 2) (i : Fin 8192) :
    val_main_v16 (F := Ideal) x0 x1 (ix2 b i) = Cert.Chamfer.dist1 x1 x0 b i := by
  have hy : ∀ j : Fin 8192, val_main_v15 (F := Ideal) x0 x1 (ix3 b i j) = Cert.Chamfer.root (Cert.Chamfer.sqd x1 x0 b i j) :=
    fun j => v15_apply x0 x1 b i j
  unfold val_main_v16
  generalize val_main_v15 (F := Ideal) x0 x1 = y at hy ⊢
  have h := Host.reduce_eq_fold_single (a := (2 : Fin 3)) (FloatOps.minimumf (F := Ideal) (φ := .f32)) y (val_main_cst_3 (F := Ideal)) reducesTo_S2x8192x8192_S2x8192_d2 reduces_d2 h_S_ (ix2 b i)
  refine h.trans ?_
  have hf : (y ∘ reduces_d2.lift (ix2 b i)) = fun j : Fin 8192 => Cert.Chamfer.root (Cert.Chamfer.sqd x1 x0 b i j) := by
    funext j
    refine Eq.trans ?_ (hy j)
    exact congrArg y (funext fun a => Fin.ext (by match a with | ⟨0, _⟩ => rfl | ⟨1, _⟩ => rfl | ⟨2, _⟩ => rfl))
  rw [hf]
  rfl

/-- The least distance from point j of the second cloud: the fold of the minimum over the middle axis. -/
theorem v17_apply (x0 x1 : (⟨S2x8192x3, .f32⟩ : BufTy).Contents (Elt Ideal)) (b : Fin 2) (j : Fin 8192) :
    val_main_v17 (F := Ideal) x0 x1 (ix2 b j) = Cert.Chamfer.dist2 x1 x0 b j := by
  have hy : ∀ i : Fin 8192, val_main_v15 (F := Ideal) x0 x1 (ix3 b i j) = Cert.Chamfer.root (Cert.Chamfer.sqd x1 x0 b i j) :=
    fun i => v15_apply x0 x1 b i j
  unfold val_main_v17
  generalize val_main_v15 (F := Ideal) x0 x1 = y at hy ⊢
  have h := Host.reduce_eq_fold_single (a := (1 : Fin 3)) (FloatOps.minimumf (F := Ideal) (φ := .f32)) y (val_main_cst_4 (F := Ideal)) reducesTo_S2x8192x8192_S2x8192_d1 reduces_d1 h_S_ (ix2 b j)
  refine h.trans ?_
  have hf : (y ∘ reduces_d1.lift (ix2 b j)) = fun i : Fin 8192 => Cert.Chamfer.root (Cert.Chamfer.sqd x1 x0 b i j) := by
    funext i
    refine Eq.trans ?_ (hy i)
    exact congrArg y (funext fun a => Fin.ext (by match a with | ⟨0, _⟩ => rfl | ⟨1, _⟩ => rfl | ⟨2, _⟩ => rfl))
  rw [hf]
  rfl

end Cert.Chamfer.Ref

end
-- ==== Proof.Tail.lean ====
/-
  The tail both programs end with.

  Given the two arrays of least distances d1, d2 (one entry per batch entry and point), each program takes, per batch
  entry, the mean of d1 over the 8192 points plus the mean of d2 over the 8192 points, and then the mean of that over the
  two batch entries.  A mean is a sum from zero divided by the count.  `tail` states this once; `ref_tail` reads the
  reference's result as the tail of its two arrays, `kernel_tail` the kernel program's result as the tail of the two
  arrays its region leaves, each read as a [2, 8192] array (they differ only by a unit axis).
-/
import proofs.«126163_j4750233829481_2_alg».proof.Proof.Gen.KernelIdeal.Frame
import proofs.«126163_j4750233829481_2_alg».proof.Proof.Gen.ReferenceIdeal.Read
import proofs.«126163_j4750233829481_2_alg».proof.Proof.Spec
import Idealize.ShloMosaic.Lib.StableHlo.Run
import Idealize.ShloMosaic.Lib.Pipeline.Value
import Idealize.ShloMosaic.Lib.Tactic

noncomputable section

namespace Cert.Chamfer.Tail

open Idealize.ShloMosaic Idealize.ShloMosaic.TcCoe Idealize.SL.Sem

/-- The tail both programs end with, over two arrays of least distances d1, d2 (one entry per batch entry and point):
    the mean of d1 over the points plus the mean of d2 over the points, per batch entry, then the mean of that over
    the two batch entries.  Each mean is a sum from zero divided by the count (8192, then 2). -/
def tail (h1 : (⟨2, ![2, 8192]⟩ : Shape).ReducesTo [1] ⟨1, ![2]⟩) (h0 : 0 < (⟨0, ![]⟩ : Shape).numel)
    (hb : (⟨0, ![]⟩ : Shape).BroadcastsInDim ⟨1, ![2]⟩ (![] : Fin 0 → Fin 1))
    (h2 : (⟨1, ![2]⟩ : Shape).ReducesTo [0] ⟨0, ![]⟩)
    (d1 d2 : FVec Ideal ⟨2, ![2, 8192]⟩ .f32) : FVec Ideal ⟨0, ![]⟩ .f32 :=
  Host.divf (F := Ideal)
    (Host.reduceAdd (F := Ideal)
      (addf
        (Host.divf (F := Ideal)
          (Host.reduceAdd (F := Ideal) d1 (constant (F := Ideal) ⟨0, ![]⟩ .f32 0x00000000#32) h1 h0)
          (broadcastInDim ⟨1, ![2]⟩ ![] hb (constant (F := Ideal) ⟨0, ![]⟩ .f32 0x46000000#32)))
        (Host.divf (F := Ideal)
          (Host.reduceAdd (F := Ideal) d2 (constant (F := Ideal) ⟨0, ![]⟩ .f32 0x00000000#32) h1 h0)
          (broadcastInDim ⟨1, ![2]⟩ ![] hb (constant (F := Ideal) ⟨0, ![]⟩ .f32 0x46000000#32))))
      (constant (F := Ideal) ⟨0, ![]⟩ .f32 0x00000000#32) h2 h0)
    (constant (F := Ideal) ⟨0, ![]⟩ .f32 0x40000000#32)

/-- The reference's result is the tail of its two arrays of least distances. -/
theorem ref_tail (x0 x1 : (⟨Cert.ReferenceIdeal.S2x8192x3, .f32⟩ : BufTy).Contents (Elt Ideal)) :
    Cert.ReferenceIdeal.Read.val_main_v26 (F := Ideal) x0 x1
      = tail Cert.ReferenceIdeal.Facts₀.reducesTo_S2x8192_S2_d1 Cert.ReferenceIdeal.Facts₀.h_S_
          Cert.ReferenceIdeal.Facts₀.bcast_S_S2 Cert.ReferenceIdeal.Facts₀.reducesTo_S2_S_d0
          (Cert.ReferenceIdeal.Read.val_main_v16 (F := Ideal) x0 x1)
          (Cert.ReferenceIdeal.Read.val_main_v17 (F := Ideal) x0 x1) := by
  unfold Cert.ReferenceIdeal.Read.val_main_v26 Cert.ReferenceIdeal.Read.val_main_v25 Cert.ReferenceIdeal.Read.val_main_v24
    Cert.ReferenceIdeal.Read.val_main_v23 Cert.ReferenceIdeal.Read.val_main_v22 Cert.ReferenceIdeal.Read.val_main_v21
    Cert.ReferenceIdeal.Read.val_main_v20 Cert.ReferenceIdeal.Read.val_main_v19 Cert.ReferenceIdeal.Read.val_main_v18
    Cert.ReferenceIdeal.Read.val_main_cst_5 Cert.ReferenceIdeal.Read.val_main_cst_6 Cert.ReferenceIdeal.Read.val_main_cst_7
    Cert.ReferenceIdeal.Read.val_main_cst_8 Cert.ReferenceIdeal.Read.val_main_cst_9 Cert.ReferenceIdeal.Read.val_main_cst_10
  generalize Cert.ReferenceIdeal.Read.val_main_v16 (F := Ideal) x0 x1 = d1
  generalize Cert.ReferenceIdeal.Read.val_main_v17 (F := Ideal) x0 x1 = d2
  rfl

open Cert.KernelIdeal Cert.KernelIdeal.Gen in
/-- The kernel's program ends with the same tail, applied to the two arrays the region leaves (A2 of shape
    [2, 8192, 1] and A3 of shape [2, 1, 8192]), each read as a [2, 8192] array. -/
theorem kernel_tail (m : (ℓ : Loc Cert.KernelIdeal.nD Cert.KernelIdeal.τ Cert.KernelIdeal.sig) → Buf (Elt Ideal) ℓ)
    (c : Dev Cert.KernelIdeal.nD)
    (A2 : S2x8192x1.Idx → EReal) (A3 : S2x1x8192.Idx → EReal)
    (h2 : (dats m 0 c).arrAt 2 cfg0.N = A2) (h3 : (dats m 0 c).arrAt 3 cfg0.N = A3) :
    Pipeline.afterTail₀ cfgs (dats m) 0 (V0 m) [hostOps1] c main_v0
      = tail reducesTo_S2x8192_S2_d1 h_S_ bcast_S_S2 reducesTo_S2_S_d0
          (shapeCast S2x8192 A2 shapeCasts_S2x8192x1_S2x8192) (shapeCast S2x8192 A3 shapeCasts_S2x1x8192_S2x8192) := by
  unfold Pipeline.afterTail₀
  show StableHlo.after hostOps1 _ (Proc.devRef .tc main_v0) = _
  have e2 : Pipeline.withArrays (cfgs 0).spec c (V0 m c) (fun w => (dats m 0 c).arrAt w (cfgs 0).N)
      (Proc.devRef .tc main_call0_v1_0) = A2 :=
    (Pipeline.withArrays_arr spec0 launch0.win.arr_inj c _ _ 2).trans h2
  have e3 : Pipeline.withArrays (cfgs 0).spec c (V0 m c) (fun w => (dats m 0 c).arrAt w (cfgs 0).N)
      (Proc.devRef .tc main_call0_v1_1) = A3 :=
    (Pipeline.withArrays_arr spec0 launch0.win.arr_inj c _ _ 3).trans h3
  generalize Pipeline.withArrays (cfgs 0).spec c (V0 m c) (fun w => (dats m 0 c).arrAt w (cfgs 0).N) = W at e2 e3 ⊢
  after_results
  subst e2 e3
  rfl

end Cert.Chamfer.Tail

end
-- ==== Proof.LibUnitCasts.lean ====
/-
  Casts that drop a unit axis of a rank-3 array, read at coordinates: an [A, B, 1] array recast as [A, B] reads, at
  (a, b), the array at (a, b, 0); an [A, 1, C] array recast as [A, C] reads, at (a, c), the array at (a, 0, c).
  Every statement is over arbitrary extents and spells indices by their coordinates.
-/
import Idealize.ShloMosaic.Lib.ValueIdx
import Idealize.ShloMosaic.Lib.Pipeline.Value

noncomputable section

namespace Cert.LibUnitCasts

open Idealize.ShloMosaic Idealize.ShloMosaic.ValueIdx

variable {α : Type}

/-- [A, B, 1] cast to [A, B], at (a, b): the operand at (a, b, 0). -/
theorem cast_ab1_ab {A B : ℕ} (x : (⟨3, ![A, B, 1]⟩ : Shape).Idx → α)
    (h : (⟨3, ![A, B, 1]⟩ : Shape).ShapeCasts ⟨2, ![A, B]⟩) (a : Fin A) (b : Fin B) :
    shapeCast ⟨2, ![A, B]⟩ x h (ix2 a b) = x (ix3 a b (0 : Fin 1)) := by
  refine shapeCast_apply x h _ _ ?_
  rw [Shape.rowMajor_val_two, Shape.rowMajor_val_three]
  show (a.val * B + b.val) * 1 + 0 = a.val * B + b.val
  omega

/-- [A, 1, C] cast to [A, C], at (a, c): the operand at (a, 0, c). -/
theorem cast_a1c_ac {A C : ℕ} (x : (⟨3, ![A, 1, C]⟩ : Shape).Idx → α)
    (h : (⟨3, ![A, 1, C]⟩ : Shape).ShapeCasts ⟨2, ![A, C]⟩) (a : Fin A) (c : Fin C) :
    shapeCast ⟨2, ![A, C]⟩ x h (ix2 a c) = x (ix3 a (0 : Fin 1) c) := by
  refine shapeCast_apply x h _ _ ?_
  rw [Shape.rowMajor_val_two, Shape.rowMajor_val_three]
  show (a.val * 1 + 0) * C + c.val = a.val * C + c.val
  rw [Nat.mul_one, Nat.add_zero]

end Cert.LibUnitCasts

end
-- ==== Proof.lean ====
/-
  The Chamfer distance kernel against its reference, over the extended reals.

  Both programs take two batches of clouds of 8192 points in three coordinates and return one number: the mean over
  the batch of (the mean over the first cloud's points of their least distance to the second cloud, plus the mean over
  the second cloud's points of their least distance to the first).  Distances come from the squared distance written
  by the expansion  |g|² + |p|² − 2·⟨g, p⟩,  clamped at zero, under a square root.

  The reference takes the root of every pairwise entry and then the least values along rows and along columns.  The
  kernel works tile by tile on the first cloud: it takes the least SQUARED distance along each row of a tile and the
  root of that; for the columns it keeps a running least squared distance across a batch entry's 64 tiles, starting at
  +∞, and takes the root after the last tile.  The two agree because the clamped root is monotone and keeps +∞, so it
  commutes with a least value over a finite family, and because a least value taken tile by tile is the least value
  over all the points.  The sums of three squares and of three products are the same sums in both programs (addition
  of extended reals is associative and commutative), and the closing means are the same operations applied to equal
  arrays.  No finiteness of the inputs is used.

  The three frame claims are the generated frame runs (the reference's: its generated run with the result dropped);
  the idealization rewrote nothing, so `preserves` is trivial.
-/
import proofs.«126163_j4750233829481_2_alg».proof.Defs
import proofs.«126163_j4750233829481_2_alg».proof.Proof.Gen.Kernel
import proofs.«126163_j4750233829481_2_alg».proof.Proof.Gen.Kernel.Frame
import proofs.«126163_j4750233829481_2_alg».proof.Proof.Gen.KernelIdeal
import proofs.«126163_j4750233829481_2_alg».proof.Proof.Gen.KernelIdeal.Frame
import proofs.«126163_j4750233829481_2_alg».proof.Proof.Gen.ReferenceIdeal
import proofs.«126163_j4750233829481_2_alg».proof.Proof.Gen.ReferenceIdeal.Run
import proofs.«126163_j4750233829481_2_alg».proof.Proof.Gen.ReferenceIdeal.Read
import proofs.«126163_j4750233829481_2_alg».proof.Proof.Gen.Pre_finite_inputs
import proofs.«126163_j4750233829481_2_alg».proof.Proof.Final
import proofs.«126163_j4750233829481_2_alg».proof.Proof.RefSide
import proofs.«126163_j4750233829481_2_alg».proof.Proof.Tail
import proofs.«126163_j4750233829481_2_alg».proof.Proof.LibUnitCasts
import Idealize.ShloMosaic.Adequacy
import Idealize.ShloMosaic.Init

noncomputable section

open Idealize.ShloMosaic Idealize.ShloMosaic.TcCoe Idealize.SL.Sem Idealize.ShloMosaic.ValueIdx

/-! ## The kernel's run, read -/

namespace Cert.Chamfer.Kernel

open Cert.KernelIdeal Cert.KernelIdeal.Gen Cert.Chamfer Cert.Chamfer.Tail

variable (m : (ℓ : Loc nD τ sig) → Buf (Elt Ideal) ℓ) (ρ : Dev nD → PrngReg)

/-- The kernel's result on core c: the closing means of the two arrays of least distances. -/
def result (c : Dev nD) : Buf (Elt Ideal) ((c.tc : Thread nD τ).loc main_v0) :=
  tail reducesTo_S2x8192_S2_d1 h_S_ bcast_S_S2 reducesTo_S2_S_d0
    (shapeCast S2x8192 (G2 (gtA m c) (prA m c)) shapeCasts_S2x8192x1_S2x8192)
    (shapeCast S2x8192 (G3 (gtA m c) (prA m c)) shapeCasts_S2x1x8192_S2x8192)

/-- Every weakly fair execution of the kernel's program ends with that result and the arguments unchanged. -/
theorem kernel_run : θ_run (defs (F := Ideal)) (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v0 (Pipeline.mem_restRefs_of main_v0 (by decide) (by decide))).trans
          (kernel_tail m c _ _ (final2 m c) (final3 m c)),
        ((h c).2 main_arg0 (Pipeline.mem_restRefs_of main_arg0 (by decide) (by decide))).trans (W_main_arg0 m (dats m) c),
        ((h c).1 0).trans (((dats m 0 c).arrAt_in 0 rfl _).trans ((A_eq m c 0).trans (V_main_arg1 m c)))⟩)
    (run_main m ρ)

end Cert.Chamfer.Kernel

/-! ## The reference's two arrays of least distances are the kernel's -/

namespace Cert.Chamfer.Bridge

open Cert.Chamfer Cert.Chamfer.Kernel

/-- The reference's least distances from the first cloud's points, as the kernel's first output with its unit axis dropped. -/
theorem d1_eq (x0 x1 : Pts) :
    Cert.ReferenceIdeal.Read.val_main_v16 (F := Ideal) x0 x1
      = shapeCast Cert.KernelIdeal.S2x8192 (G2 x1 x0) Cert.KernelIdeal.Facts₀.shapeCasts_S2x8192x1_S2x8192 := by
  funext i
  obtain ⟨b, n, rfl⟩ : ∃ (b : Fin 2) (n : Fin 8192), i = ix2 b n := ⟨i 0, i 1, eq_ix2 i⟩
  rw [Cert.Chamfer.Ref.v16_apply, Cert.LibUnitCasts.cast_ab1_ab]
  exact (G2_at x1 x0 _ b n rfl rfl).symm

/-- The reference's least distances from the second cloud's points, as the kernel's second output with its unit axis dropped. -/
theorem d2_eq (x0 x1 : Pts) :
    Cert.ReferenceIdeal.Read.val_main_v17 (F := Ideal) x0 x1
      = shapeCast Cert.KernelIdeal.S2x8192 (G3 x1 x0) Cert.KernelIdeal.Facts₀.shapeCasts_S2x1x8192_S2x8192 := by
  funext i
  obtain ⟨b, n, rfl⟩ : ∃ (b : Fin 2) (n : Fin 8192), i = ix2 b n := ⟨i 0, i 1, eq_ix2 i⟩
  rw [Cert.Chamfer.Ref.v17_apply, Cert.LibUnitCasts.cast_a1c_ac]
  exact (G3_at x1 x0 _ b n rfl rfl).symm

end Cert.Chamfer.Bridge

/-! ## The claims -/

namespace Cert.Proof

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the closing means of the same two arrays of least distances. -/
theorem algebraic : Cert.algebraic_KernelIdeal_ReferenceIdeal := by
  intro m ρ m' ρ' _ hagree
  refine ⟨fun c => Cert.Chamfer.Kernel.result m c, Cert.Chamfer.Kernel.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.Chamfer.Tail.ref_tail, (hagree c).1, (hagree c).2,
    Cert.Chamfer.Bridge.d1_eq, Cert.Chamfer.Bridge.d2_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
